-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x600000 32) (main_arg2 : FVec F S600000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 86
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S_, .f32⟩
  | .hbm, ⟨15, _⟩ => ⟨S50000, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S50000x128, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x1, .f32⟩
  | .hbm, ⟨60, _⟩ => ⟨S650000x128, .f32⟩
  | .hbm, ⟨61, _⟩ => ⟨S650000x128, .f32⟩
  | .hbm, ⟨62, _⟩ => ⟨S_, .f32⟩
  | .hbm, ⟨63, _⟩ => ⟨S50000x128, .f32⟩
  | .hbm, ⟨64, _⟩ => ⟨S650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000x128, .f32⟩
  | .hbm, ⟨77, _⟩ => ⟨S650000x1, .f32⟩
  | .hbm, ⟨78, _⟩ => ⟨S650000x128, .f32⟩
  | .hbm, ⟨79, _⟩ => ⟨S650000x128, .f32⟩
  | .hbm, ⟨80, _⟩ => ⟨S_, .f32⟩
  | .hbm, ⟨81, _⟩ => ⟨S50000x128, .f32⟩
  | .hbm, ⟨82, _⟩ => ⟨S650000x1, .i32⟩
  | .hbm, ⟨83, _⟩ => ⟨S50000x128, .f32⟩
  | .hbm, ⟨84, _⟩ => ⟨S1x128, .f32⟩
  | .hbm, ⟨85, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x128, .f32⟩
  | 4 => ⟨S128, .f32⟩
  | 5 => ⟨S128x128, .f32⟩
  | 6 => ⟨S128, .f32⟩
  | 7 => ⟨S50000, .i32⟩
  | 8 => ⟨S1x600000, .i32⟩
  | 9 => ⟨S600000, .i32⟩
  | 10 => ⟨S650000, .i32⟩
  | 11 => ⟨S1x600000, .i32⟩
  | 12 => ⟨S600000, .i32⟩
  | 13 => ⟨S650000, .i32⟩
  | 14 => ⟨S_, .f32⟩
  | 15 => ⟨S50000, .f32⟩
  | 16 => ⟨S650000, .f32⟩
  | 17 => ⟨S_, .f32⟩
  | 18 => ⟨S50000, .f32⟩
  | 19 => ⟨S650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S50000x128, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x1, .f32⟩
  | 60 => ⟨S650000x128, .f32⟩
  | 61 => ⟨S650000x128, .f32⟩
  | 62 => ⟨S_, .f32⟩
  | 63 => ⟨S50000x128, .f32⟩
  | 64 => ⟨S650000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000, .f32⟩
  | 74 => ⟨S650000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S650000, .i32⟩
  | 86 => ⟨S650000, .i1⟩
  | 87 => ⟨S_, .i32⟩
  | 88 => ⟨S650000, .i32⟩
  | 89 => ⟨S650000, .i32⟩
  | 90 => ⟨S650000, .i32⟩
  | 91 => ⟨S650000x1, .i32⟩
  | 92 => ⟨S650000, .f32⟩
  | 93 => ⟨S650000, .f32⟩
  | 94 => ⟨S_, .i32⟩
  | 95 => ⟨S650000, .i32⟩
  | 96 => ⟨S650000, .i1⟩
  | 97 => ⟨S_, .i32⟩
  | 98 => ⟨S650000, .i32⟩
  | 99 => ⟨S650000, .i32⟩
  | 100 => ⟨S650000, .i32⟩
  | 101 => ⟨S650000x1, .i32⟩
  | 102 => ⟨S650000, .f32⟩
  | 103 => ⟨S650000, .f32⟩
  | 104 => ⟨S50000x128, .f32⟩
  | 105 => ⟨S_, .i32⟩
  | 106 => ⟨S650000, .i32⟩
  | 107 => ⟨S650000, .i1⟩
  | 108 => ⟨S_, .i32⟩
  | 109 => ⟨S650000, .i32⟩
  | 110 => ⟨S650000, .i32⟩
  | 111 => ⟨S650000, .i32⟩
  | 112 => ⟨S650000x1, .i32⟩
  | 113 => ⟨S650000x128, .f32⟩
  | 114 => ⟨S650000x1, .f32⟩
  | 115 => ⟨S650000x128, .f32⟩
  | 116 => ⟨S650000x128, .f32⟩
  | 117 => ⟨S_, .f32⟩
  | 118 => ⟨S50000x128, .f32⟩
  | 119 => ⟨S650000x1, .i32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.ResultRun.lean ====
/-
  The idealized kernel's run, with its result array named.

  The program is three kernel launches among stretches of host operations.  Every weakly fair execution ends, nothing
  faulting, with every buffer at the contents the last boundary of that chain gives it; in particular the result
  array ends at what the last launch leaves in it, and the seven argument arrays end as they were launched.
-/
import proofs.«176249_j42580305772849_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the last boundary's contents and the
    arguments as launched. -/
theorem run_out : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Named

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.Layers.lean ====
/-
  The two graph-convolution layers' dense parts, as functions of whole arrays over the extended reals.

  The network has 50000 nodes with 128 features each.  Between the sparse aggregations (a gather of rows, a scaling by
  the edge's normalized weight, a scatter-add onto the destination rows) it applies three dense maps, written here
  entry by entry:
    * `transform X W`: the features times a 128 × 128 weight matrix, entry `(r, c)` the sum over `k` of
      `X (r, k) * W (k, c)`;
    * `hiddenTransform A b W`: the first layer's aggregate plus its bias, cut off below at zero, times the second
      weight matrix: entry `(r, c)` the sum over `k` of `max (A (r, k) + b k) 0 * W (k, c)`;
    * `activate A b`: the second layer's aggregate plus its bias under the logistic function.
  The bias is laid out as one row `[1, 128]`.
-/
import Idealize.ShloMosaic.Lib.ValueIdx
import Idealize.ShloMosaic.PureOps.Ideal

noncomputable section

namespace GraphLayers

open Idealize.ShloMosaic Idealize.ShloMosaic.ValueIdx

/-- Node features: one row per node. -/
abbrev Feat : Shape := ⟨2, ![50000, 128]⟩
/-- A weight matrix. -/
abbrev Wts : Shape := ⟨2, ![128, 128]⟩
/-- A bias, as one row. -/
abbrev BiasRow : Shape := ⟨2, ![1, 128]⟩

/-- The node (row) of an entry. -/
abbrev node (i : Feat.Idx) : Fin 50000 := ⟨(i 0).val, (i 0).isLt⟩
/-- The feature channel (column) of an entry. -/
abbrev chan (i : Feat.Idx) : Fin 128 := ⟨(i 1).val, (i 1).isLt⟩

/-- The features times a weight matrix. -/
def transform (X : Feat.Idx → EReal) (W : Wts.Idx → EReal) : Feat.Idx → EReal :=
  fun i => ∑ k : Fin 128, X (ix2 (node i) k) * W (ix2 k (chan i))

/-- The aggregate plus the bias, cut off below at zero (the zero written as its float pattern), times a weight matrix. -/
def hiddenTransform (A : Feat.Idx → EReal) (b : BiasRow.Idx → EReal) (W : Wts.Idx → EReal) : Feat.Idx → EReal :=
  fun i => ∑ k : Fin 128,
    max (A (ix2 (node i) k) + b (ix2 (0 : Fin 1) k)) (Ideal.ofBits .f32 0x00000000#32) * W (ix2 k (chan i))

/-- The aggregate plus the bias, under the logistic function. -/
def activate (A : Feat.Idx → EReal) (b : BiasRow.Idx → EReal) : Feat.Idx → EReal :=
  fun i => Ideal.logistic (A i + b (ix2 (0 : Fin 1) (chan i)))

end GraphLayers

end
-- ==== Proof.Stage0.lean ====
/-
  The first launch: the features times the first weight matrix, block by block.

  The launch walks the 50000 rows in ten blocks of 5000.  At a grid point the body multiplies the block of rows by the
  whole weight matrix (a narrowing of the float format on the way in changes nothing over the extended reals), so
  entry `(p, c)` of what it writes back is the sum over `k` of the block's `(p, k)` times the weights' `(k, c)`: the
  block of `transform X W` at that point.  The ten blocks cover the array, so it ends holding `transform X W`.
-/
import proofs.«176249_j42580305772849_1_alg».proof.Proof.Gen.KernelIdeal.Frame
import proofs.«176249_j42580305772849_1_alg».proof.Proof.LibDenseBlock
import proofs.«176249_j42580305772849_1_alg».proof.Proof.Layers
import Idealize.ShloMosaic.Lib.Pipeline.Value

set_option maxRecDepth 16384

noncomputable section

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat)
open GraphLayers

variable (V : (c : Dev nD) → (b : Ref sig .tc) → Buf (Elt Ideal) ((c : Thread nD τ).loc b))

theorem zeroOffsets : (![0, 0] : Fin 2 → Nat) = fun _ => 0 := funext fun a => by fin_cases a <;> rfl

/-- Entry `(p, c)` of the body's product is the row `p` of the block against the column `c` of the weights. -/
theorem block_product (x0 : Vec Ideal S5000x128 .f32) (x1 : Vec Ideal S128x128 .f32) (p : Fin 5000) (q : Fin 128) :
    k0_pay1 x0 x1 (ix2 p q) = ∑ n : Fin 128, x0 (ix2 p n) * x1 (ix2 n q) := by
  unfold k0_pay1
  exact DenseBlock.matmul_zero_apply Facts₀.dot_S5000x128_S128x128_S5000x128_1_0_0_1_n_n_wf x0 x1 p q

/-- Where the windows' blocks sit: the row blocks of the features and of the result move together, the weights stay. -/
theorem block_positions : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The features' block at a grid point is the rows `5000 t … 5000 t + 4999` of the features. -/
theorem feature_block (c : Dev nD) (t : Fin cfg0.N) (y : S5000x128.Idx) (k : Feat.Idx)
    (hk0 : (k 0).val = t.val * 5000 + (y 0).val) (hk1 : (k 1).val = (y 1).val) :
    (iblk0 V c 0 t : Vec Ideal S5000x128 .f32) y = (V c main_arg0 : Feat.Idx → EReal) k := by
  obtain ⟨e0, e1, e2, e3, e4, e5⟩ := block_positions t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * (y 0).val = (k 0).val; rw [e0, e4, hk0]; omega
  | ⟨1, _⟩ => show win0_0.index t (1 : Fin 2) * 128 + 1 * (y 1).val = (k 1).val; rw [e1, hk1]; omega

/-- The weights' block at every grid point is the whole weight matrix. -/
theorem weight_block (c : Dev nD) (t : Fin cfg0.N) (y : S128x128.Idx) :
    (iblk0 V c 1 t : Vec Ideal S128x128 .f32) y = (V c main_arg3 : Wts.Idx → EReal) y := by
  obtain ⟨e0, e1, e2, e3, e4, e5⟩ := block_positions t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What the body computes at a point, at an entry of its block, is `transform` at the entry's place in the array. -/
theorem point_entry (c : Dev nD) (t : Fin cfg0.N) (y : S5000x128.Idx) (i : Feat.Idx)
    (hi0 : (i 0).val = t.val * 5000 + (y 0).val) (hi1 : (i 1).val = (y 1).val) :
    k0_pay1 (iblk0 V c 0 t) (iblk0 V c 1 t) y = transform (V c main_arg0) (V c main_arg3) i := by
  obtain ⟨p, q, rfl⟩ : ∃ (p : Fin 5000) (q : Fin 128), y = ix2 p q := ⟨y 0, y 1, eq_ix2 y⟩
  refine (block_product (iblk0 V c 0 t) (iblk0 V c 1 t) p q).trans ?_
  unfold transform
  have hq : q = chan i := Fin.ext hi1.symm
  refine Finset.sum_congr rfl fun n _ => ?_
  rw [feature_block V c t (ix2 p n) (ix2 (node i) n) hi0 rfl, weight_block V c t (ix2 n q), hq]

/-- What a grid point writes back is its block of `transform` of the features and the weights. -/
theorem written_block (c : Dev nD) (t : Fin cfg0.N) :
    (dat0 V c).flushed 2 t
      = ((cfg0.win 2).blk t).view.read (Elt Ideal) (transform (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := block_positions t
  funext j
  show k0_pay1 (iblk0 V c 0 t) (iblk0 V c 1 t) j
    = transform (V c main_arg0) (V c main_arg3) (((cfg0.win 2).blk t).view.emb j)
  refine point_entry V c t j _ ?_ ?_
  · show win0_2.index t (0 : Fin 2) * 5000 + 1 * (j 0).val = _; rw [e4]; omega
  · show win0_2.index t (1 : Fin 2) * 128 + 1 * (j 1).val = _; rw [e5]; omega

/-- An entry of the array lies in a point's block iff each coordinate lies in the block's range. -/
theorem mem_block (t : Fin cfg0.N) (i : Feat.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- After the launch the result array holds `transform` of the features and the weights as the launch found them. -/
theorem array_after (c : Dev nD) :
    (dat0 V c).arrAt 2 cfg0.N = transform (V c main_arg0) (V c main_arg3) :=
  (dat0 V c).arrAt_eq_of_cover 2 _ (fun t _ => written_block V c t) fun i => by
    have hi0 : (i 0).val < 50000 := (i 0).isLt
    have hi1 : (i 1).val < 128 := (i 1).isLt
    have hN : cfg0.N = 10 := N_0
    refine ⟨⟨(i 0).val / 5000, by rw [hN]; omega⟩, flush0_2 _, ?_⟩
    obtain ⟨e0, e1, e2, e3, e4, e5⟩ := block_positions ⟨(i 0).val / 5000, by rw [hN]; omega⟩
    rw [mem_block]
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 128 ≤ (i 1).val ∧ (i 1).val < win0_2.index _ (1 : Fin 2) * 128 + 128
      rw [e5]; omega

end Cert.KernelIdeal.Stage0

end
-- ==== Proof.Stage1.lean ====
/-
  The second launch: the first layer's aggregate plus its bias, cut off below at zero, times the second weight matrix.

  The launch walks the 50000 rows in ten blocks of 5000; the bias row and the weight matrix are the same at every
  point.  At a grid point the body adds the bias row to every row of the block, takes the maximum with zero, and
  multiplies by the weights, so entry `(p, c)` of what it writes back is the sum over `k` of
  `max (A (p, k) + b k) 0 * W (k, c)`: the block of `hiddenTransform A b W` at that point.  The ten blocks cover the
  array.
-/
import proofs.«176249_j42580305772849_1_alg».proof.Proof.Gen.KernelIdeal.Frame
import proofs.«176249_j42580305772849_1_alg».proof.Proof.LibDenseBlock
import proofs.«176249_j42580305772849_1_alg».proof.Proof.Layers
import Idealize.ShloMosaic.Lib.Pipeline.Value
import Idealize.ShloMosaic.Lib.ValueLayout

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat)
open GraphLayers

variable (V : (c : Dev nD) → (b : Ref sig .tc) → Buf (Elt Ideal) ((c : Thread nD τ).loc b))

theorem zeroOffsets : (![0, 0] : Fin 2 → Nat) = fun _ => 0 := funext fun a => by fin_cases a <;> rfl

/-- Entry `(p, c)` of the body's result. -/
theorem block_product (x0 : Vec Ideal S5000x128 .f32) (x1 : Vec Ideal S1x128 .f32) (x2 : Vec Ideal S128x128 .f32)
    (p : Fin 5000) (q : Fin 128) :
    k1_pay1 x0 x1 x2 (ix2 p q)
      = ∑ n : Fin 128, max (x0 (ix2 p n) + x1 (ix2 (0 : Fin 1) n)) (Ideal.ofBits .f32 0x00000000#32) * x2 (ix2 n q) := by
  unfold k1_pay1
  refine (DenseBlock.matmul_zero_apply Facts₀.dot_S5000x128_S128x128_S5000x128_1_0_0_1_n_n_wf _ _ p q).trans ?_
  refine Finset.sum_congr rfl fun n _ => ?_
  show max (shapeCast S5000x128 x0 _ (ix2 p n) + broadcastTo S5000x128 (shapeCast S1x128 x1 _) _ (ix2 p n))
      (Ideal.ofBits .f32 0x00000000#32) * x2 (ix2 n q) = _
  rw [shapeCast_self, shapeCast_self, broadcastTo_1b_ab_apply]

/-- Where the windows' blocks sit: the row blocks of the aggregate and of the result move together, the bias row and
    the weights stay. -/
theorem block_positions : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- The aggregate's block at a grid point is the rows `5000 t … 5000 t + 4999` of the aggregate. -/
theorem aggregate_block (c : Dev nD) (t : Fin cfg1.N) (y : S5000x128.Idx) (k : Feat.Idx)
    (hk0 : (k 0).val = t.val * 5000 + (y 0).val) (hk1 : (k 1).val = (y 1).val) :
    (iblk1 V c 0 t : Vec Ideal S5000x128 .f32) y = (V c main_v45 : Feat.Idx → EReal) k := by
  obtain ⟨e0, e1, e2, e3, e4, e5, e6, e7⟩ := block_positions t
  unfold iblk1
  rw [View.read_apply]
  show V c main_v45 _ = V c main_v45 _
  refine congrArg (V c main_v45) ?_
  funext a
  apply Fin.ext
  match a with
  | ⟨0, _⟩ => show win1_0.index t (0 : Fin 2) * 5000 + 1 * (y 0).val = (k 0).val; rw [e0, e6, hk0]; omega
  | ⟨1, _⟩ => show win1_0.index t (1 : Fin 2) * 128 + 1 * (y 1).val = (k 1).val; rw [e1, hk1]; omega

/-- The bias row's block at every grid point is the whole row. -/
theorem bias_block (c : Dev nD) (t : Fin cfg1.N) (y : S1x128.Idx) :
    (iblk1 V c 1 t : Vec Ideal S1x128 .f32) y = (V c main_v46 : BiasRow.Idx → EReal) y := by
  obtain ⟨e0, e1, e2, e3, e4, e5, e6, e7⟩ := block_positions t
  unfold iblk1
  rw [View.read_apply]
  show V c main_v46 _ = V c main_v46 _
  refine congrArg (V c main_v46) ?_
  funext a
  apply Fin.ext
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- The weights' block at every grid point is the whole weight matrix. -/
theorem weight_block (c : Dev nD) (t : Fin cfg1.N) (y : S128x128.Idx) :
    (iblk1 V c 2 t : Vec Ideal S128x128 .f32) y = (V c main_arg5 : Wts.Idx → EReal) y := by
  obtain ⟨e0, e1, e2, e3, e4, e5, e6, e7⟩ := block_positions t
  unfold iblk1
  rw [View.read_apply]
  show V c main_arg5 _ = V c main_arg5 _
  refine congrArg (V c main_arg5) ?_
  funext a
  apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- What the body computes at a point, at an entry of its block, is `hiddenTransform` at the entry's place in the
    array. -/
theorem point_entry (c : Dev nD) (t : Fin cfg1.N) (y : S5000x128.Idx) (i : Feat.Idx)
    (hi0 : (i 0).val = t.val * 5000 + (y 0).val) (hi1 : (i 1).val = (y 1).val) :
    k1_pay1 (iblk1 V c 0 t) (iblk1 V c 1 t) (iblk1 V c 2 t) y
      = hiddenTransform (V c main_v45) (V c main_v46) (V c main_arg5) i := by
  obtain ⟨p, q, rfl⟩ : ∃ (p : Fin 5000) (q : Fin 128), y = ix2 p q := ⟨y 0, y 1, eq_ix2 y⟩
  refine (block_product (iblk1 V c 0 t) (iblk1 V c 1 t) (iblk1 V c 2 t) p q).trans ?_
  unfold hiddenTransform
  have hq : q = chan i := Fin.ext hi1.symm
  refine Finset.sum_congr rfl fun n _ => ?_
  rw [aggregate_block V c t (ix2 p n) (ix2 (node i) n) hi0 rfl, bias_block V c t (ix2 (0 : Fin 1) n),
    weight_block V c t (ix2 n q), hq]

/-- What a grid point writes back is its block of `hiddenTransform` of the aggregate, the bias row and the weights. -/
theorem written_block (c : Dev nD) (t : Fin cfg1.N) :
    (dat1 V c).flushed 3 t
      = ((cfg1.win 3).blk t).view.read (Elt Ideal) (hiddenTransform (V c main_v45) (V c main_v46) (V c main_arg5)) := by
  show (cfg1.win 3).cut (grid1.coords t) ((dat1 V c).after 3 t) = _
  rw [after1_3]
  unfold out1_3
  rw [View.canon_unit_zero zeroOffsets]
  simp only [View.ld_unit_zero (S := S5000x128) zeroOffsets, View.ld_unit_zero (S := S1x128) zeroOffsets,
    View.ld_unit_zero (S := S128x128) zeroOffsets]
  obtain ⟨e0, e1, e2, e3, e4, e5, e6, e7⟩ := block_positions t
  funext j
  show k1_pay1 (iblk1 V c 0 t) (iblk1 V c 1 t) (iblk1 V c 2 t) j
    = hiddenTransform (V c main_v45) (V c main_v46) (V c main_arg5) (((cfg1.win 3).blk t).view.emb j)
  refine point_entry V c t j _ ?_ ?_
  · show win1_3.index t (0 : Fin 2) * 5000 + 1 * (j 0).val = _; rw [e6]; omega
  · show win1_3.index t (1 : Fin 2) * 128 + 1 * (j 1).val = _; rw [e7]; omega

/-- An entry of the array lies in a point's block iff each coordinate lies in the block's range. -/
theorem mem_block (t : Fin cfg1.N) (i : Feat.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v47).slice (win1_3.rect t)).set ↔ _
  rw [View.set_slice_whole, Rect.mem_set_unit]
  exact Iff.rfl

/-- After the launch the result array holds `hiddenTransform` of the three arrays as the launch found them. -/
theorem array_after (c : Dev nD) :
    (dat1 V c).arrAt 3 cfg1.N = hiddenTransform (V c main_v45) (V c main_v46) (V c main_arg5) :=
  (dat1 V c).arrAt_eq_of_cover 3 _ (fun t _ => written_block V c t) fun i => by
    have hi0 : (i 0).val < 50000 := (i 0).isLt
    have hi1 : (i 1).val < 128 := (i 1).isLt
    have hN : cfg1.N = 10 := N_1
    refine ⟨⟨(i 0).val / 5000, by rw [hN]; omega⟩, flush1_3 _, ?_⟩
    obtain ⟨e0, e1, e2, e3, e4, e5, e6, e7⟩ := block_positions ⟨(i 0).val / 5000, by rw [hN]; omega⟩
    rw [mem_block]
    intro a
    match a with
    | ⟨0, _⟩ =>
      show win1_3.index _ (0 : Fin 2) * 5000 ≤ (i 0).val ∧ (i 0).val < win1_3.index _ (0 : Fin 2) * 5000 + 5000
      rw [e6]; show (i 0).val / 5000 * 5000 ≤ (i 0).val ∧ (i 0).val < (i 0).val / 5000 * 5000 + 5000; omega
    | ⟨1, _⟩ =>
      show win1_3.index _ (1 : Fin 2) * 128 ≤ (i 1).val ∧ (i 1).val < win1_3.index _ (1 : Fin 2) * 128 + 128
      rw [e7]; omega

end Cert.KernelIdeal.Stage1

end
-- ==== Proof.Stage2.lean ====
/-
  The third launch: the second layer's aggregate plus its bias, under the logistic function.

  The launch walks the 50000 rows in ten blocks of 5000; the bias row is the same at every point.  At a grid point the
  body adds the bias row to every row of the block and applies the logistic function entry by entry: the block of
  `activate A b` at that point.  The ten blocks cover the array.
-/
import proofs.«176249_j42580305772849_1_alg».proof.Proof.Gen.KernelIdeal.Frame
import proofs.«176249_j42580305772849_1_alg».proof.Proof.LibDenseBlock
import proofs.«176249_j42580305772849_1_alg».proof.Proof.Layers
import Idealize.ShloMosaic.Lib.Pipeline.Value
import Idealize.ShloMosaic.Lib.ValueLayout

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat)
open GraphLayers

variable (V : (c : Dev nD) → (b : Ref sig .tc) → Buf (Elt Ideal) ((c : Thread nD τ).loc b))

theorem zeroOffsets : (![0, 0] : Fin 2 → Nat) = fun _ => 0 := funext fun a => by fin_cases a <;> rfl

/-- Entry `(p, c)` of the body's result. -/
theorem block_value (x0 : Vec Ideal S5000x128 .f32) (x1 : Vec Ideal S1x128 .f32) (p : Fin 5000) (q : Fin 128) :
    k2_pay1 x0 x1 (ix2 p q) = Ideal.logistic (x0 (ix2 p q) + x1 (ix2 (0 : Fin 1) q)) := by
  unfold k2_pay1
  show Ideal.logistic (shapeCast S5000x128 x0 _ (ix2 p q) + broadcastTo S5000x128 (shapeCast S1x128 x1 _) _ (ix2 p q)) = _
  rw [shapeCast_self, shapeCast_self, broadcastTo_1b_ab_apply]

/-- Where the windows' blocks sit: the row blocks of the aggregate and of the result move together, the bias row
    stays. -/
theorem block_positions : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The aggregate's block at a grid point is the rows `5000 t … 5000 t + 4999` of the aggregate. -/
theorem aggregate_block (c : Dev nD) (t : Fin cfg2.N) (y : S5000x128.Idx) (k : Feat.Idx)
    (hk0 : (k 0).val = t.val * 5000 + (y 0).val) (hk1 : (k 1).val = (y 1).val) :
    (iblk2 V c 0 t : Vec Ideal S5000x128 .f32) y = (V c main_v60 : Feat.Idx → EReal) k := by
  obtain ⟨e0, e1, e2, e3, e4, e5⟩ := block_positions t
  unfold iblk2
  rw [View.read_apply]
  show V c main_v60 _ = V c main_v60 _
  refine congrArg (V c main_v60) ?_
  funext a
  apply Fin.ext
  match a with
  | ⟨0, _⟩ => show win2_0.index t (0 : Fin 2) * 5000 + 1 * (y 0).val = (k 0).val; rw [e0, e4, hk0]; omega
  | ⟨1, _⟩ => show win2_0.index t (1 : Fin 2) * 128 + 1 * (y 1).val = (k 1).val; rw [e1, hk1]; omega

/-- The bias row's block at every grid point is the whole row. -/
theorem bias_block (c : Dev nD) (t : Fin cfg2.N) (y : S1x128.Idx) :
    (iblk2 V c 1 t : Vec Ideal S1x128 .f32) y = (V c main_v61 : BiasRow.Idx → EReal) y := by
  obtain ⟨e0, e1, e2, e3, e4, e5⟩ := block_positions t
  unfold iblk2
  rw [View.read_apply]
  show V c main_v61 _ = V c main_v61 _
  refine congrArg (V c main_v61) ?_
  funext a
  apply Fin.ext
  match a with
  | ⟨0, _⟩ => show win2_1.index t (0 : Fin 2) * 1 + 1 * (y 0).val = (y 0).val; rw [e2]; omega
  | ⟨1, _⟩ => show win2_1.index t (1 : Fin 2) * 128 + 1 * (y 1).val = (y 1).val; rw [e3]; omega

/-- What the body computes at a point, at an entry of its block, is `activate` at the entry's place in the array. -/
theorem point_entry (c : Dev nD) (t : Fin cfg2.N) (y : S5000x128.Idx) (i : Feat.Idx)
    (hi0 : (i 0).val = t.val * 5000 + (y 0).val) (hi1 : (i 1).val = (y 1).val) :
    k2_pay1 (iblk2 V c 0 t) (iblk2 V c 1 t) y = activate (V c main_v60) (V c main_v61) i := by
  obtain ⟨p, q, rfl⟩ : ∃ (p : Fin 5000) (q : Fin 128), y = ix2 p q := ⟨y 0, y 1, eq_ix2 y⟩
  refine (block_value (iblk2 V c 0 t) (iblk2 V c 1 t) p q).trans ?_
  unfold activate
  have hq : q = chan i := Fin.ext hi1.symm
  rw [aggregate_block V c t (ix2 p q) i hi0 hi1, bias_block V c t (ix2 (0 : Fin 1) q), hq]

/-- What a grid point writes back is its block of `activate` of the aggregate and the bias row. -/
theorem written_block (c : Dev nD) (t : Fin cfg2.N) :
    (dat2 V c).flushed 2 t
      = ((cfg2.win 2).blk t).view.read (Elt Ideal) (activate (V c main_v60) (V c main_v61)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S1x128) zeroOffsets]
  obtain ⟨e0, e1, e2, e3, e4, e5⟩ := block_positions t
  funext j
  show k2_pay1 (iblk2 V c 0 t) (iblk2 V c 1 t) j
    = activate (V c main_v60) (V c main_v61) (((cfg2.win 2).blk t).view.emb j)
  refine point_entry V c t j _ ?_ ?_
  · show win2_2.index t (0 : Fin 2) * 5000 + 1 * (j 0).val = _; rw [e4]; omega
  · show win2_2.index t (1 : Fin 2) * 128 + 1 * (j 1).val = _; rw [e5]; omega

/-- An entry of the array lies in a point's block iff each coordinate lies in the block's range. -/
theorem mem_block (t : Fin cfg2.N) (i : Feat.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v62).slice (win2_2.rect t)).set ↔ _
  rw [View.set_slice_whole, Rect.mem_set_unit]
  exact Iff.rfl

/-- After the launch the result array holds `activate` of the two arrays as the launch found them. -/
theorem array_after (c : Dev nD) :
    (dat2 V c).arrAt 2 cfg2.N = activate (V c main_v60) (V c main_v61) :=
  (dat2 V c).arrAt_eq_of_cover 2 _ (fun t _ => written_block V c t) fun i => by
    have hi0 : (i 0).val < 50000 := (i 0).isLt
    have hi1 : (i 1).val < 128 := (i 1).isLt
    have hN : cfg2.N = 10 := N_2
    refine ⟨⟨(i 0).val / 5000, by rw [hN]; omega⟩, flush2_2 _, ?_⟩
    obtain ⟨e0, e1, e2, e3, e4, e5⟩ := block_positions ⟨(i 0).val / 5000, by rw [hN]; omega⟩
    rw [mem_block]
    intro a
    match a with
    | ⟨0, _⟩ =>
      show win2_2.index _ (0 : Fin 2) * 5000 ≤ (i 0).val ∧ (i 0).val < win2_2.index _ (0 : Fin 2) * 5000 + 5000
      rw [e4]; show (i 0).val / 5000 * 5000 ≤ (i 0).val ∧ (i 0).val < (i 0).val / 5000 * 5000 + 5000; omega
    | ⟨1, _⟩ =>
      show win2_2.index _ (1 : Fin 2) * 128 ≤ (i 1).val ∧ (i 1).val < win2_2.index _ (1 : Fin 2) * 128 + 128
      rw [e5]; omega

end Cert.KernelIdeal.Stage2

end
-- ==== Proof.Bridge.lean ====
/-
  The reference's dense stages are the layers' functions.

  The reference computes the same three dense maps with whole-array host operations: a `dot_general` of the features
  with the first weights; the aggregate plus the bias broadcast along the rows, the maximum with zero, and a
  `dot_general` with the second weights; the aggregate plus the bias, negated, exponentiated, one added, and one divided
  by the result.  Entry by entry these are `transform`, `hiddenTransform` and `activate`: a `dot_general` contracting
  one axis is the sum over that axis, the broadcasts read the bias at the entry's column, and `1 / (1 + exp (-z))` is
  the logistic function on every extended real (the float pattern of one denotes one).
-/
import proofs.«176249_j42580305772849_1_alg».proof.Proof.Gen.ReferenceIdeal.Read
import proofs.«176249_j42580305772849_1_alg».proof.Proof.Layers
import Idealize.ShloMosaic.Lib.IdealHost

set_option maxRecDepth 16384

noncomputable section

namespace Cert.ReferenceIdeal.Dense

open Cert.ReferenceIdeal Cert.ReferenceIdeal.Read
open Idealize.ShloMosaic Idealize.ShloMosaic.TcCoe Idealize.ShloMosaic.ValueIdx
open GraphLayers

/-- The left factor's place in a row-times-column sum. -/
theorem left_place (i : Feat.Idx) (k : Fin 128) : (ix2 (node i) k : Feat.Idx) = lidx_main_v32 i k :=
  funext fun a => match a with | ⟨0, _⟩ => rfl | ⟨1, _⟩ => rfl

/-- The right factor's place in a row-times-column sum. -/
theorem right_place (i : Feat.Idx) (k : Fin 128) : (ix2 k (chan i) : Wts.Idx) = ridx_main_v32 i k :=
  funext fun a => match a with | ⟨0, _⟩ => rfl | ⟨1, _⟩ => rfl

/-- The first `dot_general` is `transform`. -/
theorem transform_eq (X : Feat.Idx → EReal) (W : Wts.Idx → EReal) :
    transform X W = val_main_v32 (F := Ideal) X W := by
  funext i
  rw [val_main_v32_apply]
  unfold transform
  refine Finset.sum_congr rfl fun k _ => ?_
  rw [left_place, right_place]

/-- The bias added, the cut-off at zero and the second `dot_general` are `hiddenTransform` of the first aggregate, for
    a bias row that holds the bias. -/
theorem hiddenTransform_eq (a0 : Feat.Idx → EReal) (a1 : (⟨2, ![2, 600000]⟩ : Shape).Idx → BitVec 32)
    (a2 : (⟨1, ![600000]⟩ : Shape).Idx → EReal) (a3 : Wts.Idx → EReal) (a4 : (⟨1, ![128]⟩ : Shape).Idx → EReal)
    (a5 : Wts.Idx → EReal) (b : BiasRow.Idx → EReal) (hb : ∀ k : Fin 128, b (ix2 (0 : Fin 1) k) = a4 (ix1 k)) :
    hiddenTransform (val_main_v45 (F := Ideal) a0 a1 a2 a3) b a5 = val_main_v73 (F := Ideal) a0 a1 a2 a3 a4 a5 := by
  funext i
  rw [val_main_v73_apply]
  unfold hiddenTransform
  refine Finset.sum_congr rfl fun k _ => ?_
  rw [val_main_v49_apply, val_main_v48_apply, val_main_v47_apply, val_main_v46_apply, val_main_call1_v0_apply,
    val_main_call1_cst_apply, hb k]
  show max (val_main_v45 (F := Ideal) a0 a1 a2 a3 (ix2 (node i) k) + a4 (ix1 k)) (Ideal.ofBits .f32 0x00000000#32)
      * a5 (ix2 k (chan i))
    = max (val_main_v45 (F := Ideal) a0 a1 a2 a3 (lidx_main_v73 i k) + a4 (idx_main_v46 (idx_main_v47 (lidx_main_v73 i k))))
        (Ideal.ofBits .f32 0x00000000#32) * a5 (ridx_main_v73 i k)
  have e1 : (ix2 (node i) k : Feat.Idx) = lidx_main_v73 i k :=
    funext fun a => match a with | ⟨0, _⟩ => rfl | ⟨1, _⟩ => rfl
  have e2 : (ix2 k (chan i) : Wts.Idx) = ridx_main_v73 i k :=
    funext fun a => match a with | ⟨0, _⟩ => rfl | ⟨1, _⟩ => rfl
  have e3 : (ix1 k : (⟨1, ![128]⟩ : Shape).Idx) = idx_main_v46 (idx_main_v47 (lidx_main_v73 i k)) :=
    funext fun a => match a with | ⟨0, _⟩ => rfl
  rw [e1, e2, e3]

/-- The bias added and `1 / (1 + exp (-z))` are `activate` of the second aggregate, for a bias row that holds the
    bias. -/
theorem activate_eq (a0 : Feat.Idx → EReal) (a1 : (⟨2, ![2, 600000]⟩ : Shape).Idx → BitVec 32)
    (a2 : (⟨1, ![600000]⟩ : Shape).Idx → EReal) (a3 : Wts.Idx → EReal) (a4 : (⟨1, ![128]⟩ : Shape).Idx → EReal)
    (a5 : Wts.Idx → EReal) (a6 : (⟨1, ![128]⟩ : Shape).Idx → EReal) (b : BiasRow.Idx → EReal)
    (hb : ∀ k : Fin 128, b (ix2 (0 : Fin 1) k) = a6 (ix1 k)) :
    activate (val_main_v86 (F := Ideal) a0 a1 a2 a3 a4 a5) b = val_main_v95 (F := Ideal) a0 a1 a2 a3 a4 a5 a6 := by
  funext i
  rw [val_main_v95_apply, val_main_v94_apply, val_main_cst_20_apply, val_main_v93_apply, val_main_v92_apply,
    val_main_cst_19_apply, val_main_v91_apply, val_main_v90_apply, val_main_v89_apply, val_main_v88_apply,
    val_main_v87_apply]
  unfold activate Ideal.logistic
  rw [hb (chan i)]
  have e3 : (ix1 (chan i) : (⟨1, ![128]⟩ : Shape).Idx) = idx_main_v87 (idx_main_v88 i) :=
    funext fun a => match a with | ⟨0, _⟩ => rfl
  rw [e3]
  simp only [Ideal.hostDivf_def, Ideal.addf_def, Ideal.hostUnary_exp_def, Ideal.hostNegf_def, Ideal.negf_def,
    Ideal.ofBits_def, Ideal.ofBits_one_f32]

end Cert.ReferenceIdeal.Dense

end
-- ==== Proof.Chain.lean ====
/-
  The idealized kernel's result, read back through the program.

  The program is: host operations that build the edge list with self-loops and the edges' normalized weights; the first
  launch; host operations that gather the transformed rows along the edges, scale them and scatter-add them onto the
  destination rows; the second launch; the same aggregation again; the third launch.  Reading each boundary's contents
  back to the arguments: the edge list and the normalized weights are the reference's own terms (the reference builds
  the normalized weights twice, from the same operations); the launches leave the layers' dense maps of what they are
  entered with; and the aggregations between them are the reference's host operations applied to those.  So the result
  array is the reference's result term of the same arguments.
-/
import proofs.«176249_j42580305772849_1_alg».proof.Proof.Gen.KernelIdeal.Frame
import proofs.«176249_j42580305772849_1_alg».proof.Proof.Gen.ReferenceIdeal.Read
import proofs.«176249_j42580305772849_1_alg».proof.Proof.Stage0
import proofs.«176249_j42580305772849_1_alg».proof.Proof.Stage1
import proofs.«176249_j42580305772849_1_alg».proof.Proof.Stage2
import proofs.«176249_j42580305772849_1_alg».proof.Proof.Bridge
import Idealize.ShloMosaic.Lib.StableHlo.Run
import Idealize.ShloMosaic.Lib.ValueLayout

set_option maxRecDepth 16384

noncomputable section

namespace Cert.KernelIdeal.Chain

open Cert.KernelIdeal Cert.KernelIdeal.Gen
open Cert.ReferenceIdeal.Read
open Idealize.ShloMosaic Idealize.ShloMosaic.TcCoe Idealize.ShloMosaic.ValueIdx Idealize.SL.Sem
open Idealize.ShloMosaic.StableHlo
open GraphLayers

/-- Reads the operands that are still unread inside a concatenation: each operation's result at its own buffer is
    its function of its operands, at another buffer what was there. -/
macro "read_rest" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

variable (m : (ℓ : Loc nD τ sig) → Buf (Elt Ideal) ℓ) (ρ : Dev nD → PrngReg) (c : Dev nD)

/-! ## Before the first launch -/

/-- The edges' sources, self-loops appended. -/
theorem entry0_src : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

/-- The edges' destinations, self-loops appended. -/
theorem entry0_dst : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

set_option maxHeartbeats 2000000 in
/-- The edges' normalized weights: the inverse square roots of the two end nodes' weighted degrees (zero where the
    degree is not positive) times the edge's weight.  The transports along the buffers' types are identities. -/
theorem entry0_norm : W3 m ρ c (Proc.devRef .tc main_v31) = val_main_v31 (F := Ideal) (m ((c : Thread nD τ).loc main_arg1)) (m ((c : Thread nD τ).loc main_arg2)) := by
  show StableHlo.after hostOps0_2 (StableHlo.after hostOps0_1 (StableHlo.after hostOps0 (W0 m ρ c))) (Proc.devRef .tc main_v31) = _
  after_results_simp
  read_rest
  simp only [cast_eq]
  rfl

/-- The arguments the launches read are as launched. -/
theorem entry0_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem entry0_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem entry0_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem entry0_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem entry0_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

/-! ## The first launch -/

/-- It leaves the features times the first weights: the reference's first `dot_general`. -/
theorem exit0_out : W4 m ρ c (Proc.devRef .tc main_v32) = val_main_v32 (F := Ideal) (m ((c : Thread nD τ).loc main_arg0)) (m ((c : Thread nD τ).loc main_arg3)) := by
  refine (W4_arr m ρ c 2).trans ?_
  rw [Stage0.array_after (V3 m ρ) c]
  show transform (W3 m ρ c (Proc.devRef .tc main_arg0)) (W3 m ρ c (Proc.devRef .tc main_arg3)) = _
  rw [entry0_arg0, entry0_arg3]
  exact Cert.ReferenceIdeal.Dense.transform_eq _ _

theorem exit0_src : W4 m ρ c (Proc.devRef .tc main_v3) = val_main_v3 (F := Ideal) (m ((c : Thread nD τ).loc main_arg1)) :=
  (W4_of_ne m ρ c main_v3 (by decide)).trans (entry0_src m ρ c)
theorem exit0_dst : W4 m ρ c (Proc.devRef .tc main_v6) = val_main_v6 (F := Ideal) (m ((c : Thread nD τ).loc main_arg1)) :=
  (W4_of_ne m ρ c main_v6 (by decide)).trans (entry0_dst m ρ c)
theorem exit0_norm : W4 m ρ c (Proc.devRef .tc main_v31) = val_main_v31 (F := Ideal) (m ((c : Thread nD τ).loc main_arg1)) (m ((c : Thread nD τ).loc main_arg2)) :=
  (W4_of_ne m ρ c main_v31 (by decide)).trans (entry0_norm m ρ c)
theorem exit0_arg4 : W4 m ρ c (Proc.devRef .tc main_arg4) = (m ((c : Thread nD τ).loc main_arg4)) :=
  (W4_of_ne m ρ c main_arg4 (by decide)).trans (entry0_arg4 m ρ c)
theorem exit0_arg5 : W4 m ρ c (Proc.devRef .tc main_arg5) = (m ((c : Thread nD τ).loc main_arg5)) :=
  (W4_of_ne m ρ c main_arg5 (by decide)).trans (entry0_arg5 m ρ c)
theorem exit0_arg6 : W4 m ρ c (Proc.devRef .tc main_arg6) = (m ((c : Thread nD τ).loc main_arg6)) :=
  (W4_of_ne m ρ c main_arg6 (by decide)).trans (entry0_arg6 m ρ c)

/-! ## Between the first and the second launch -/

/-- The first aggregate: the reference's gather, scaling and scatter-add of the same rows. -/
theorem entry1_agg : W5 m ρ c (Proc.devRef .tc main_v45)
    = val_main_v45 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v45) = _
  after_results_simp
  rw [exit0_out, exit0_src, exit0_norm, exit0_dst]
  rfl

/-- The first bias as a row. -/
theorem entry1_bias (k : Fin 128) :
    (W5 m ρ c (Proc.devRef .tc main_v46) : BiasRow.Idx → EReal) (ix2 (0 : Fin 1) k) = (m ((c : Thread nD τ).loc main_arg4)) (ix1 k) := by
  have h : W5 m ρ c (Proc.devRef .tc main_v46) = shapeCast S1x128 (m ((c : Thread nD τ).loc main_arg4)) Facts₀.shapeCasts_S128_S1x128 := by
    show StableHlo.after hostOps1 (W4 m ρ c) (Proc.devRef .tc main_v46) = _
    after_results_simp
    rw [exit0_arg4]
    rfl
  rw [h]
  exact shapeCast_a_1a_apply _ _ 0 k

theorem entry1_weights : W5 m ρ c (Proc.devRef .tc main_arg5) = (m ((c : Thread nD τ).loc main_arg5)) := by
  show StableHlo.after hostOps1 (W4 m ρ c) (Proc.devRef .tc main_arg5) = _
  after_results_simp
  exact exit0_arg5 m ρ c
theorem entry1_src : W5 m ρ c (Proc.devRef .tc main_v3) = val_main_v3 (F := Ideal) (m ((c : Thread nD τ).loc main_arg1)) := by
  show StableHlo.after hostOps1 (W4 m ρ c) (Proc.devRef .tc main_v3) = _
  after_results_simp
  exact exit0_src m ρ c
theorem entry1_dst : W5 m ρ c (Proc.devRef .tc main_v6) = val_main_v6 (F := Ideal) (m ((c : Thread nD τ).loc main_arg1)) := by
  show StableHlo.after hostOps1 (W4 m ρ c) (Proc.devRef .tc main_v6) = _
  after_results_simp
  exact exit0_dst m ρ c
theorem entry1_norm : W5 m ρ c (Proc.devRef .tc main_v31) = val_main_v31 (F := Ideal) (m ((c : Thread nD τ).loc main_arg1)) (m ((c : Thread nD τ).loc main_arg2)) := by
  show StableHlo.after hostOps1 (W4 m ρ c) (Proc.devRef .tc main_v31) = _
  after_results_simp
  exact exit0_norm m ρ c
theorem entry1_arg6 : W5 m ρ c (Proc.devRef .tc main_arg6) = (m ((c : Thread nD τ).loc main_arg6)) := by
  show StableHlo.after hostOps1 (W4 m ρ c) (Proc.devRef .tc main_arg6) = _
  after_results_simp
  exact exit0_arg6 m ρ c

/-! ## The second launch -/

/-- It leaves the hidden layer's dense map: the reference's bias, cut-off and second `dot_general`. -/
theorem exit1_out : W6 m ρ c (Proc.devRef .tc main_v47)
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ?_
  rw [Stage1.array_after (V5 m ρ) c]
  show hiddenTransform (W5 m ρ c (Proc.devRef .tc main_v45)) (W5 m ρ c (Proc.devRef .tc main_v46))
      (W5 m ρ c (Proc.devRef .tc main_arg5)) = _
  rw [entry1_agg, entry1_weights]
  exact Cert.ReferenceIdeal.Dense.hiddenTransform_eq _ _ _ _ _ _ _ (entry1_bias m ρ c)

/-- The reference builds the normalized weights a second time, by the same operations. -/
theorem norm_again (a1 : (⟨2, ![2, 600000]⟩ : Shape).Idx → BitVec 32) (a2 : (⟨1, ![600000]⟩ : Shape).Idx → EReal) :
    val_main_v72 (F := Ideal) a1 a2 = val_main_v31 (F := Ideal) a1 a2 := rfl

theorem exit1_src : W6 m ρ c (Proc.devRef .tc main_v3) = val_main_v3 (F := Ideal) (m ((c : Thread nD τ).loc main_arg1)) :=
  (W6_of_ne m ρ c main_v3 (by decide)).trans (entry1_src m ρ c)
theorem exit1_dst : W6 m ρ c (Proc.devRef .tc main_v6) = val_main_v6 (F := Ideal) (m ((c : Thread nD τ).loc main_arg1)) :=
  (W6_of_ne m ρ c main_v6 (by decide)).trans (entry1_dst m ρ c)
theorem exit1_norm : W6 m ρ c (Proc.devRef .tc main_v31) = val_main_v72 (F := Ideal) (m ((c : Thread nD τ).loc main_arg1)) (m ((c : Thread nD τ).loc main_arg2)) :=
  ((W6_of_ne m ρ c main_v31 (by decide)).trans (entry1_norm m ρ c)).trans (norm_again _ _).symm
theorem exit1_arg6 : W6 m ρ c (Proc.devRef .tc main_arg6) = (m ((c : Thread nD τ).loc main_arg6)) :=
  (W6_of_ne m ρ c main_arg6 (by decide)).trans (entry1_arg6 m ρ c)

/-! ## Between the second and the third launch -/

/-- The second aggregate: the reference's gather, scaling and scatter-add of the same rows. -/
theorem entry2_agg : W7 m ρ c (Proc.devRef .tc main_v60)
    = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v60) = _
  after_results_simp
  rw [exit1_out, exit1_src, exit1_norm, exit1_dst]
  rfl

/-- The second bias as a row. -/
theorem entry2_bias (k : Fin 128) :
    (W7 m ρ c (Proc.devRef .tc main_v61) : BiasRow.Idx → EReal) (ix2 (0 : Fin 1) k) = (m ((c : Thread nD τ).loc main_arg6)) (ix1 k) := by
  have h : W7 m ρ c (Proc.devRef .tc main_v61) = shapeCast S1x128 (m ((c : Thread nD τ).loc main_arg6)) Facts₀.shapeCasts_S128_S1x128 := by
    show StableHlo.after hostOps2 (W6 m ρ c) (Proc.devRef .tc main_v61) = _
    after_results_simp
    rw [exit1_arg6]
    rfl
  rw [h]
  exact shapeCast_a_1a_apply _ _ 0 k

/-! ## The third launch -/

/-- The result array is the reference's result term of the arguments. -/
theorem result_eq : W8 m ρ c (Proc.devRef .tc main_v62)
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  rw [Stage2.array_after (V7 m ρ) c]
  show activate (W7 m ρ c (Proc.devRef .tc main_v60)) (W7 m ρ c (Proc.devRef .tc main_v61)) = _
  rw [entry2_agg]
  exact Cert.ReferenceIdeal.Dense.activate_eq _ _ _ _ _ _ _ _ (entry2_bias m ρ c)

end Cert.KernelIdeal.Chain

end
-- ==== Proof.lean ====
/-
  A two-layer graph convolution: three dense kernel launches among host gathers and scatter-adds, against the same
  network written with whole-array host operations; equal over the extended reals.

  Both programs append self-loops to the edge list, form the weighted in-degrees by a scatter-add, take their inverse
  square roots (zero where a degree is not positive) and so the edges' normalized weights; each layer transforms the
  node features by a weight matrix, gathers the transformed rows along the edges, scales them by the normalized
  weights and scatter-adds them onto the destination rows, then adds a bias.  Between the layers is a cut-off at zero,
  after them the logistic function.  The kernel does the dense parts in launches over ten blocks of 5000 rows: the
  first weight product; the first bias, the cut-off and the second weight product fused; the second bias and the
  logistic function.  It narrows the matrix products' operands to a shorter float format, which over the extended
  reals changes nothing, and it forms the normalized weights once where the reference forms them once per layer.

  So entry by entry both results are the same function of the arguments: a block's matrix product is the rows'
  sums of products, the blocks cover the arrays, the host operations in between are the same operations on the same
  values, and `1 / (1 + exp (-z))` is the logistic function at every extended real.  No law used needs the inputs
  finite; the precondition is not opened.  The idealization rewrote nothing, so its sanctioning claim is trivial.
-/
import proofs.«176249_j42580305772849_1_alg».proof.Defs
import proofs.«176249_j42580305772849_1_alg».proof.Proof.Gen.Kernel
import proofs.«176249_j42580305772849_1_alg».proof.Proof.Gen.Kernel.Skeleton
import proofs.«176249_j42580305772849_1_alg».proof.Proof.Gen.Kernel.Launch
import proofs.«176249_j42580305772849_1_alg».proof.Proof.Gen.Kernel.Points
import proofs.«176249_j42580305772849_1_alg».proof.Proof.Gen.Kernel.Frame
import proofs.«176249_j42580305772849_1_alg».proof.Proof.Gen.KernelIdeal
import proofs.«176249_j42580305772849_1_alg».proof.Proof.Gen.KernelIdeal.Skeleton
import proofs.«176249_j42580305772849_1_alg».proof.Proof.Gen.KernelIdeal.Launch
import proofs.«176249_j42580305772849_1_alg».proof.Proof.Gen.KernelIdeal.Points
import proofs.«176249_j42580305772849_1_alg».proof.Proof.Gen.KernelIdeal.Frame
import proofs.«176249_j42580305772849_1_alg».proof.Proof.Gen.ReferenceIdeal
import proofs.«176249_j42580305772849_1_alg».proof.Proof.Gen.ReferenceIdeal.Run
import proofs.«176249_j42580305772849_1_alg».proof.Proof.Gen.ReferenceIdeal.Read
import proofs.«176249_j42580305772849_1_alg».proof.Proof.Gen.Pre_finite_inputs
import proofs.«176249_j42580305772849_1_alg».proof.Proof.ResultRun
import proofs.«176249_j42580305772849_1_alg».proof.Proof.Chain
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's last launch
    leaves the reference's result term of the kernel's arguments, which are the reference's. -/
theorem algebraic : Cert.algebraic_KernelIdeal_ReferenceIdeal := by
  intro m ρ m' ρ' _ hagree
  refine ⟨fun c => Cert.KernelIdeal.Gen.W8 m ρ c (Proc.devRef .tc Cert.KernelIdeal.main_v62),
    Cert.KernelIdeal.Named.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v95_eq, h0, h1, h2, h3, h4, h5, h6]
  exact (Cert.KernelIdeal.Chain.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
